-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S2048x50 .f32 .bf16
  ∧ IdealRules.truncf_extf.Statement Cert.KernelIdeal.S512x50 .f32 .bf16
  ∧ IdealRules.truncf_extf.Statement Cert.KernelIdeal.S512x50 .f32 .bf16
  ∧ IdealRules.truncf_extf.Statement Cert.KernelIdeal.S512x50 .f32 .bf16
  ∧ IdealRules.truncf_extf.Statement Cert.KernelIdeal.S512x50 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x50 : Shape := ⟨2, ![65536, 50]⟩
abbrev S2048x50 : Shape := ⟨2, ![2048, 50]⟩
abbrev S_ : Shape := ⟨0, ![]⟩

class Facts : Prop where
  bcast_S_S65536x50 : S_.BroadcastsInDim S65536x50 (![] : Fin 0 → Fin S65536x50.rank)
  reducesTo_S65536x50_S_d0_1 : S65536x50.ReducesTo [0, 1] S_
  h_S_ : 0 < S_.numel
  bcast_S_S2048x50 : S_.BroadcastsInDim S2048x50 (![] : Fin 0 → Fin S2048x50.rank)
  reducesTo_S2048x50_S_d0_1 : S2048x50.ReducesTo [0, 1] S_

variable [Facts]

def fn {F : FTy → Type} [FloatOps F] (main_arg0 : FVec F S65536x50 .f32) (main_arg1 : FVec F S2048x50 .f32) : IVec S_ 1 :=
  let main_v0 : FVec F S65536x50 .f32 := Host.absf main_arg0
  let main_cst : FVec F S_ .f32 := constant S_ .f32 0x7F800000#32
  let main_v1 : FVec F S65536x50 .f32 := broadcastInDim S65536x50 ![] bcast_S_S65536x50 main_cst
  let main_v2 : IVec S65536x50 1 := cmpf .olt main_v0 main_v1
  let main_c : IVec S_ 1 := constantI S_ 1 1#1
  let main_v3 : IVec S_ 1 := (fun x v => Host.reduce IntOp.andi x v reducesTo_S65536x50_S_d0_1 h_S_) main_v2 main_c
  let main_v4 : FVec F S2048x50 .f32 := Host.absf main_arg1
  let main_cst_0 : FVec F S_ .f32 := constant S_ .f32 0x7F800000#32
  let main_v5 : FVec F S2048x50 .f32 := broadcastInDim S2048x50 ![] bcast_S_S2048x50 main_cst_0
  let main_v6 : IVec S2048x50 1 := cmpf .olt main_v4 main_v5
  let main_c_1 : IVec S_ 1 := constantI S_ 1 1#1
  let main_v7 : IVec S_ 1 := (fun x v => Host.reduce IntOp.andi x v reducesTo_S2048x50_S_d0_1 h_S_) main_v6 main_c_1
  let main_v8 : IVec S_ 1 := andi main_v3 main_v7
  main_v8
-- ==== Kernel.lean ====
abbrev S65536x50 : Shape := ⟨2, ![65536, 50]⟩
abbrev S2048x50 : Shape := ⟨2, ![2048, 50]⟩
abbrev S65536x100 : Shape := ⟨2, ![65536, 100]⟩
abbrev S2048x100 : Shape := ⟨2, ![2048, 100]⟩
abbrev S512x50 : Shape := ⟨2, ![512, 50]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S65536x50, .f32⟩
  | .hbm, ⟨1, _⟩ => ⟨S2048x50, .f32⟩
  | .hbm, ⟨2, _⟩ => ⟨S65536x100, .f32⟩
  | .local _ .vmem, ⟨0, _⟩ => ⟨S2048x50, .f32⟩
  | .local _ .vmem, ⟨1, _⟩ => ⟨S2048x50, .f32⟩
  | .local _ .vmem, ⟨2, _⟩ => ⟨S2048x50, .f32⟩
  | .local _ .vmem, ⟨3, _⟩ => ⟨S2048x100, .f32⟩
  | .local _ .vmem, ⟨4, _⟩ => ⟨S2048x100, .f32⟩
  | .local _ .vmem, ⟨5, _⟩ => ⟨S2048x50, .f32⟩
  | _, _ => ⟨S65536x50, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x50 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x50 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x100 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S2048x50_S2048x50_0_0 : ∀ a, (![0, 0] : Fin 2 → Nat) a + S2048x50.size a ≤ S2048x50.size a
  h_S2048x50 : 0 < S2048x50.numel
  bitsLt_bf16_f32 : FTy.bits .bf16 < FTy.bits .f32
  shapeCasts_S2048x50_S2048x50 : S2048x50.ShapeCasts S2048x50
  inb_S2048x50_S512x50_0_0 : ∀ a, (![0, 0] : Fin 2 → Nat) a + S512x50.size a ≤ S2048x50.size a
  h_S512x50 : 0 < S512x50.numel
  inb_S2048x50_S512x50_512_0 : ∀ a, (![512, 0] : Fin 2 → Nat) a + S512x50.size a ≤ S2048x50.size a
  inb_S2048x50_S512x50_1024_0 : ∀ a, (![1024, 0] : Fin 2 → Nat) a + S512x50.size a ≤ S2048x50.size a
  inb_S2048x50_S512x50_1536_0 : ∀ a, (![1536, 0] : Fin 2 → Nat) a + S512x50.size a ≤ S2048x50.size a
  inb_S2048x100_S2048x50_0_0 : ∀ a, (![0, 0] : Fin 2 → Nat) a + S2048x50.size a ≤ S2048x100.size a
  inb_S2048x100_S2048x50_0_50 : ∀ a, (![0, 50] : Fin 2 → Nat) a + S2048x50.size a ≤ S2048x100.size a
  dot_S2048x50_S512x50_S2048x512_1_1_0_0_n_n_wf : DotDims.WF S2048x50 S512x50 S2048x512 [1] [1] [0] [0] [] []
  dot_S2048x512_S512x50_S2048x50_1_0_0_1_n_n_wf : DotDims.WF S2048x512 S512x50 S2048x50 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x50.size a ≤ S65536x50.size a
  hwx0_0 : ∀ i : grid0.Coords, EltTy.bits .f32 = 32 ∨ (Rect.block (s := S65536x50) S2048x50.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x50.size a ≤ S2048x50.size a
  hwx0_1 : ∀ i : grid0.Coords, EltTy.bits .f32 = 32 ∨ (Rect.block (s := S2048x50) S2048x50.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x100.size a ≤ S65536x100.size a
  hwx0_2 : ∀ i : grid0.Coords, EltTy.bits .f32 = 32 ∨ (Rect.block (s := S65536x100) S2048x100.size (cc0_transform_2 i) (hinb0_2 i)).WholeWords (EltTy.packing .f32)

variable [Facts₀]

def dot_S2048x50_S512x50_S2048x512_1_1_0_0_n_n : DotDims S2048x50 S512x50 S2048x512 where
  lhsContracting := [1]
  rhsContracting := [1]
  lhsNonContracting := [0]
  rhsNonContracting := [0]
  lhsBatch := []
  rhsBatch := []
  wf := dot_S2048x50_S512x50_S2048x512_1_1_0_0_n_n_wf
def dot_S2048x512_S512x50_S2048x50_1_0_0_1_n_n : DotDims S2048x512 S512x50 S2048x50 where
  lhsContracting := [1]
  rhsContracting := [0]
  lhsNonContracting := [0]
  rhsNonContracting := [1]
  lhsBatch := []
  rhsBatch := []
  wf := dot_S2048x512_S512x50_S2048x50_1_0_0_1_n_n_wf

abbrev win0_0 : Pipeline.Window sig grid0 :=
  Pipeline.Window.ofSpec (Memref.whole main_arg0) S2048x50.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x50.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x100.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x50 : Shape := ⟨2, ![65536, 50]⟩
abbrev S2048x50 : Shape := ⟨2, ![2048, 50]⟩
abbrev S65536x2048 : Shape := ⟨2, ![65536, 2048]⟩
abbrev S65536x100 : Shape := ⟨2, ![65536, 100]⟩

abbrev nBuf : Space → Nat
  | .hbm => 6
  | .vmem => 0
  | .smem => 0
  | _ => 0

abbrev bufTy : (tb : Table) → Fin (tcTables nBuf tb) → BufTy
  | .hbm, ⟨0, _⟩ => ⟨S65536x50, .f32⟩
  | .hbm, ⟨1, _⟩ => ⟨S2048x50, .f32⟩
  | .hbm, ⟨2, _⟩ => ⟨S65536x2048, .f32⟩
  | .hbm, ⟨3, _⟩ => ⟨S65536x2048, .f32⟩
  | .hbm, ⟨4, _⟩ => ⟨S65536x50, .f32⟩
  | .hbm, ⟨5, _⟩ => ⟨S65536x100, .f32⟩
  | _, _ => ⟨S65536x50, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]

class Facts₀ : Prop where
  concatenates_S65536x50_S65536x50_S65536x100_d1 : Shape.Concatenates [S65536x50, S65536x50] S65536x100 1
  dot_S65536x50_S2048x50_S65536x2048_1_1_0_0_n_n_wf : DotDims.WF S65536x50 S2048x50 S65536x2048 [1] [1] [0] [0] [] []
  dot_S65536x2048_S2048x50_S65536x50_1_0_0_1_n_n_wf : DotDims.WF S65536x2048 S2048x50 S65536x50 [1] [0] [0] [1] [] []

variable [Facts₀]

def dot_S65536x50_S2048x50_S65536x2048_1_1_0_0_n_n : DotDims S65536x50 S2048x50 S65536x2048 where
  lhsContracting := [1]
  rhsContracting := [1]
  lhsNonContracting := [0]
  rhsNonContracting := [0]
  lhsBatch := []
  rhsBatch := []
  wf := dot_S65536x50_S2048x50_S65536x2048_1_1_0_0_n_n_wf
def dot_S65536x2048_S2048x50_S65536x50_1_0_0_1_n_n : DotDims S65536x2048 S2048x50 S65536x50 where
  lhsContracting := [1]
  rhsContracting := [0]
  lhsNonContracting := [0]
  rhsNonContracting := [1]
  lhsBatch := []
  rhsBatch := []
  wf := dot_S65536x2048_S2048x50_S65536x50_1_0_0_1_n_n_wf

class Facts : Prop extends Facts₀ where

variable [Facts]
-- ==== Proof.LibLoadAfterStore.lean ====
/-
  A load of a whole buffer after a list of stores whose NEWEST is a store of the whole buffer.

  A kernel that keeps an accumulator in a scratch buffer stores the whole buffer, loads it back, adds to it and stores
  it again, several times over. Each load then reads a list of stores (newest first) through the whole-buffer
  rectangle at zero offsets. Whatever the earlier stores were, the newest one covers every index, so the load reads
  the newest store's payload: `load_after_store`. Rewriting by it from the outside in turns the nest of loads and
  stores into the plain composition of the updates.
-/
import Idealize.ShloMosaic.Lib.Pipeline.Value

namespace Cert.LoadAfterStore

open Idealize.ShloMosaic

/-- A load of a whole buffer, after a list of stores whose NEWEST is a store of the whole buffer, reads that
    store's payload, whatever the earlier stores were (the zero offsets however they are spelt: `h`). -/
theorem load_after_store {Val : EltTy → Type} [∀ e, Nonempty (Val e)] {sig : RefSig} {κ : Kind} {sp : Space}
    {S : Shape} {e : EltTy} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩),
    View.canon_cons_unit_zero rfl, View.ld_unit_zero rfl]

end Cert.LoadAfterStore
-- ==== Proof.BlockTerm.lean ====
/-
  What the kernel body leaves in the output block at one grid point, as a term of the two loaded blocks — the
  2048 batch rows `x0` of this point and the whole memory `x1` — at any float instance.

  The body keeps a [2048, 50] accumulator in scratch: it stores the zero block, then for each of the four bands of
  512 memory rows loads the accumulator back, adds that band's contribution, and stores it again; at the end it
  writes `x0` into columns 0–49 of the output block and the accumulator into columns 50–99. A load of the whole
  scratch buffer after a store of the whole buffer reads that store's payload
  (`Cert.LoadAfterStore.load_after_store`), so the chain of loads and stores is the composition of the four updates
  on the zero block (`accumulated`).

  The body's arithmetic arrives as named terms cut by position in its text, which splits one band's computation
  differently from band to band. `bandLogits` and `bandUpdate` name the computation once — the band's logits by the
  three cross products of the split operands, then accumulator + exp(logits) · band — and each named term is one
  of them by unfolding.
-/
import proofs.«147520_j9053791060248_2_alg».proof.Proof.Gen.KernelIdeal.Frame
import proofs.«147520_j9053791060248_2_alg».proof.Proof.LibLoadAfterStore
import Idealize.ShloMosaic.Lib.Pipeline.Value
import Idealize.ShloMosaic.Lib.WritesUnit
import Idealize.ShloMosaic.Lib.ValueIdx
import Idealize.ShloMosaic.Lib.Tactic

set_option maxRecDepth 16384

noncomputable section

open Idealize.ShloMosaic Idealize.ShloMosaic.TcCoe Idealize.SL.Sem

namespace Cert.KernelIdeal.Block

open Cert.KernelIdeal Cert.KernelIdeal.Gen Idealize.ShloMosaic.ValueIdx Cert.LoadAfterStore

variable {F : FTy → Type} [FloatOps F]

theorem hz : (![0, 0] : Fin 2 → Nat) = fun _ => 0 := funext fun a => by fin_cases a <;> rfl

/-! ## One band's computation, named once -/

/-- The two matrix products' dimension numbers: block · bandᵀ (features contracted), and scores · band (the band's
    512 rows contracted). -/
abbrev dLogit := dot_S2048x50_S512x50_S2048x512_1_1_0_0_n_n
abbrev dRead := dot_S2048x512_S512x50_S2048x50_1_0_0_1_n_n

/-- The logits of the block's rows against one band `mb` of 512 memory rows: with the block split into a leading
    part `xh` and a remainder `xl`, and the band into itself and its remainder `mb − mb`, the three cross products
    leading·leading + leading·remainder + remainder·leading, each a matrix product into a zero accumulator. -/
def bandLogits (xh xl : FVec F S2048x50 .bf16) (mb : Vec F S512x50 .f32) : FVec F S2048x512 .f32 :=
  addf (addf (matmul dLogit none xh (truncf .bf16 mb bitsLt_bf16_f32) (constant S2048x512 .f32 0x00000000#32))
      (matmul dLogit none xh (truncf .bf16 (subf mb mb) bitsLt_bf16_f32) (constant S2048x512 .f32 0x00000000#32)))
    (matmul dLogit none xl (truncf .bf16 mb bitsLt_bf16_f32) (constant S2048x512 .f32 0x00000000#32))

/-- One band's update of the accumulator: `acc + exp(logits) · band`. -/
def bandUpdate (xh xl : FVec F S2048x50 .bf16) (mb : Vec F S512x50 .f32) (acc : Vec F S2048x50 .f32) :
    FVec F S2048x50 .f32 :=
  shapeCast S2048x50
    (addf acc (matmul dRead none (truncf .bf16 (exp (bandLogits xh xl mb)) bitsLt_bf16_f32)
      (truncf .bf16 mb bitsLt_bf16_f32) (constant S2048x50 .f32 0x00000000#32)))
    shapeCasts_S2048x50_S2048x50

/-- Each named term that a store of the accumulator carries is one band's update; where the cut fell inside a band
    (bands 1 and 3), the band's logits or scores arrive as a term of their own. -/
theorem pay5_eq (v0 : Vec F S2048x50 .f32) (v9 : Vec F S512x50 .f32) (v21 : Vec F S2048x50 .f32) :
    k0_pay5 v0 v9 v21 = bandUpdate (k0_pay2 v0) (k0_pay3 v0) v9 v21 := rfl
theorem pay8_eq (v0 : Vec F S2048x50 .f32) (v27 : Vec F S512x50 .f32) (v39 : Vec F S2048x50 .f32) :
    k0_pay8 (k0_pay6 v27) (k0_pay7 v0 v27) v39 = bandUpdate (k0_pay2 v0) (k0_pay3 v0) v27 v39 := rfl
theorem pay9_eq (v1 v4 : FVec F S2048x50 .bf16) (v45 : Vec F S512x50 .f32) (v57 : Vec F S2048x50 .f32) :
    k0_pay9 v1 v4 v45 v57 = bandUpdate v1 v4 v45 v57 := rfl
theorem pay1_eq (v1 v4 : FVec F S2048x50 .bf16) (v63 : Vec F S512x50 .f32) (v75 : Vec F S2048x50 .f32) :
    k0_pay1 (k0_pay10 v63) (k0_pay11 v1 v4 v63) v75 = bandUpdate v1 v4 v63 v75 := rfl

/-! ## The four bands of the memory block, and the accumulator after all four -/

/-- Band `c` of the memory block: its rows `512·c … 512·c + 511`, every feature. -/
def band0 (x1 : Vec F S2048x50 .f32) : Vec F S512x50 .f32 :=
  View.ld x1 (Rect.unit ![0, 0] S512x50.size inb_S2048x50_S512x50_0_0)
def band1 (x1 : Vec F S2048x50 .f32) : Vec F S512x50 .f32 :=
  View.ld x1 (Rect.unit ![512, 0] S512x50.size inb_S2048x50_S512x50_512_0)
def band2 (x1 : Vec F S2048x50 .f32) : Vec F S512x50 .f32 :=
  View.ld x1 (Rect.unit ![1024, 0] S512x50.size inb_S2048x50_S512x50_1024_0)
def band3 (x1 : Vec F S2048x50 .f32) : Vec F S512x50 .f32 :=
  View.ld x1 (Rect.unit ![1536, 0] S512x50.size inb_S2048x50_S512x50_1536_0)

/-- The accumulator after the body: the four bands' updates, in order, of the zero block. -/
def accumulated (x0 x1 : Vec F S2048x50 .f32) : FVec F S2048x50 .f32 :=
  bandUpdate (k0_pay2 x0) (k0_pay3 x0) (band3 x1)
    (bandUpdate (k0_pay2 x0) (k0_pay3 x0) (band2 x1)
      (bandUpdate (k0_pay2 x0) (k0_pay3 x0) (band1 x1)
        (bandUpdate (k0_pay2 x0) (k0_pay3 x0) (band0 x1) k0_pay4)))

/-! ## The output block, read at a column of either half -/

/-- Columns 0–49 of the output block hold the loaded batch rows. -/
theorem out_left (c : Dev nD) (i : grid0.Coords) (a1 : Memref sig .tc .vmem S2048x50 .f32) (h1 : a1.IsWhole)
    (a2 : Memref sig .tc .vmem S2048x50 .f32) (h2 : a2.IsWhole) (a3 : Memref sig .tc .vmem S2048x100 .f32) (h3 : a3.IsWhole)
    (a4 : Memref sig .tc .vmem S2048x50 .f32) (h4 : a4.IsWhole) (x0 x1 : Vec F S2048x50 .f32)
    (y : S2048x100.Idx) (p : Fin 2048) (q : Fin 50) (hy0 : (y 0).val = p.val) (hy1 : (y 1).val = q.val) :
    out0_A_2 c i a1 h1 a2 h2 a3 h3 a4 h4 x0 x1 y = x0 (ix2 p q) := by
  unfold out0_A_2 kernelRun0_A
  dsimp only
  sl_unfold_words
  refine (View.read_writes_cons_unit_of_not_mem VO0_2 _ inb_S2048x100_S2048x50_0_50 _ _ y rfl 1
    (Or.inl (by show (y 1).val < 50; have := q.isLt; omega))).trans ?_
  refine (View.read_writes_cons_unit_of_mem VO0_2 _ inb_S2048x100_S2048x50_0_0 _ _ y (ix2 p q) rfl
    (Fin.forall_fin_two.mpr ⟨by show (y 0).val = 0 + p.val; omega, by show (y 1).val = 0 + q.val; omega⟩)).trans ?_
  simp only [View.readAt_eq_ld, h1.read_unread]
  exact congrFun (View.ld_unit_zero (S := S2048x50) hz _ x0) (ix2 p q)

/-- Columns 50–99 hold the accumulator after the four bands. -/
theorem out_right (c : Dev nD) (i : grid0.Coords) (a1 : Memref sig .tc .vmem S2048x50 .f32) (h1 : a1.IsWhole)
    (a2 : Memref sig .tc .vmem S2048x50 .f32) (h2 : a2.IsWhole) (a3 : Memref sig .tc .vmem S2048x100 .f32) (h3 : a3.IsWhole)
    (a4 : Memref sig .tc .vmem S2048x50 .f32) (h4 : a4.IsWhole) (x0 x1 : Vec F S2048x50 .f32)
    (y : S2048x100.Idx) (p : Fin 2048) (q : Fin 50) (hy0 : (y 0).val = p.val) (hy1 : (y 1).val = 50 + q.val) :
    out0_A_2 c i a1 h1 a2 h2 a3 h3 a4 h4 x0 x1 y = accumulated x0 x1 (ix2 p q) := by
  unfold out0_A_2 kernelRun0_A
  dsimp only
  sl_unfold_words
  refine (View.read_writes_cons_unit_of_mem VO0_2 _ inb_S2048x100_S2048x50_0_50 _ _ y (ix2 p q) rfl
    (Fin.forall_fin_two.mpr ⟨by show (y 0).val = 0 + p.val; omega, by show (y 1).val = 50 + q.val; omega⟩)).trans ?_
  refine congrFun ?_ (ix2 p q)
  rw [load_after_store (S := S2048x50) _ hz, load_after_store (S := S2048x50) _ hz,
    load_after_store (S := S2048x50) _ hz, load_after_store (S := S2048x50) _ hz,
    load_after_store (S := S2048x50) _ hz]
  simp only [View.readAt_eq_ld, h1.read_unread, h2.read_unread, View.ld_unit_zero (S := S2048x50) hz]
  rw [pay5_eq, pay8_eq, pay9_eq, pay1_eq]
  rfl

end Cert.KernelIdeal.Block

end
-- ==== Proof.ReadSpec.lean ====
/-
  The unnormalised memory read, as ONE function of the two argument arrays over the extended reals, and the two
  laws that join the kernel's arrangement of it to the reference's.

  For a batch row `r` of `x` (65536 rows of 50 features) and a memory slot `k` (2048 slots of 50 features) the
  logit is the inner product `⟨x_r, m_k⟩`; the read of row `r` at feature `q` is `∑ₖ exp ⟨x_r, m_k⟩ · m_k[q]`, with
  no normalisation; the result row is `x_r` followed by that read: columns 0–49 copy `x`, columns 50–99 hold the read.

  The kernel reaches the same numbers by another road. It splits each operand `a` of the logit into a leading part
  `a` and a remainder `a − a` (a rounding split, which on exact values leaves the remainder `0`), adds three of the
  four cross products, and sums the slots in four consecutive bands of 512. Two facts close the gap:
  `split_sum` — for FINITE entries the remainder terms vanish, since `a − a = 0` needs `a ≠ ±∞` on the extended reals
  while `t · 0 = 0` holds for every `t` —, and `sum_four_bands` — a sum over 2048 consecutive positions is the sum of
  its four bands, in any commutative additive monoid (only associativity of `+` is used, so no finiteness).
-/
import Idealize.ShloMosaic.PureOps.Ideal
import Idealize.ShloMosaic.Lib.ValueIdx

noncomputable section

namespace Cert.MemoryRead

open Idealize.ShloMosaic Idealize.ShloMosaic.ValueIdx

/-- Indices of `x`, of the memory, of the result. -/
abbrev XIdx := (⟨2, ![65536, 50]⟩ : Shape).Idx
abbrev MIdx := (⟨2, ![2048, 50]⟩ : Shape).Idx
abbrev OIdx := (⟨2, ![65536, 100]⟩ : Shape).Idx

/-- The logit of batch row `r` against memory slot `k`: their inner product over the 50 features. -/
def logit (x : XIdx → EReal) (mem : MIdx → EReal) (r : Fin 65536) (k : Fin 2048) : EReal :=
  ∑ d : Fin 50, x (ix2 r d) * mem (ix2 k d)

/-- The unnormalised read of row `r` at feature `q`: every slot's feature weighted by the exponential of its logit. -/
def read (x : XIdx → EReal) (mem : MIdx → EReal) (r : Fin 65536) (q : Fin 50) : EReal :=
  ∑ k : Fin 2048, Ideal.exp (logit x mem r k) * mem (ix2 k q)

/-- The result: row `r` is `x_r` (columns 0–49) followed by the read of row `r` (columns 50–99). -/
def result (x : XIdx → EReal) (mem : MIdx → EReal) : OIdx → EReal := fun j =>
  if h : (j 1).val < 50 then x (ix2 (j 0) ⟨(j 1).val, h⟩)
  else read x mem (j 0) ⟨(j 1).val - 50, by have := idx2_lt1 j; omega⟩

/-- In the copied columns the result is `x`. -/
theorem result_left (x : XIdx → EReal) (mem : MIdx → EReal) (r : Fin 65536) (q : Fin 50) (j : OIdx)
    (h0 : j 0 = r) (h1 : (j 1).val = q.val) : result x mem j = x (ix2 r q) := by
  have h : (j 1).val < 50 := by rw [h1]; exact q.isLt
  unfold result
  rw [dif_pos h]
  exact congrArg x (by rw [h0]; exact congrArg (ix2 r) (Fin.ext h1))

/-- In the other columns it is the read. -/
theorem result_right (x : XIdx → EReal) (mem : MIdx → EReal) (r : Fin 65536) (q : Fin 50) (j : OIdx)
    (h0 : j 0 = r) (h1 : (j 1).val = 50 + q.val) : result x mem j = read x mem r q := by
  have h : ¬(j 1).val < 50 := by rw [h1]; omega
  unfold result
  rw [dif_neg h, h0]
  exact congrArg (read x mem r) (Fin.ext (by show (j 1).val - 50 = q.val; omega))

/-- An extended real that is neither infinity. -/
def Finite (a : EReal) : Prop := a ≠ ⊤ ∧ a ≠ ⊥

/-- THE SPLIT COLLAPSES. With each factor cut into itself and the remainder `a − a`, the three cross products the
    kernel keeps add up to the plain inner product when every entry is finite: the remainder is then `0`, and a
    product with `0` is `0` whatever the other factor. -/
theorem split_sum {n : Nat} (a b : Fin n → EReal) (ha : ∀ d, Finite (a d)) (hb : ∀ d, Finite (b d)) :
    (∑ d, a d * b d + ∑ d, a d * (b d - b d)) + ∑ d, (a d - a d) * b d = ∑ d, a d * b d := by
  have e1 : ∀ d, a d * (b d - b d) = 0 := fun d => by rw [EReal.sub_self (hb d).1 (hb d).2, mul_zero]
  have e2 : ∀ d, (a d - a d) * b d = 0 := fun d => by rw [EReal.sub_self (ha d).1 (ha d).2, zero_mul]
  simp only [e1, e2, Finset.sum_const_zero, add_zero]

/-- THE FOUR BANDS. A sum over 2048 consecutive positions, accumulated band by band from zero — positions 0–511,
    then 512–1023, 1024–1535, 1536–2047 —, is the whole sum. -/
theorem sum_four_bands {M : Type*} [AddCommMonoid M] (f : Fin 2048 → M) :
    (((0 + ∑ j : Fin 512, f ⟨j.val, by have := j.isLt; omega⟩)
        + ∑ j : Fin 512, f ⟨512 + j.val, by have := j.isLt; omega⟩)
        + ∑ j : Fin 512, f ⟨1024 + j.val, by have := j.isLt; omega⟩)
        + ∑ j : Fin 512, f ⟨1536 + j.val, by have := j.isLt; omega⟩ = ∑ k, f k := by
  have e : ∑ k : Fin 2048, f k = ∑ k : Fin (512 + 512 + 512 + 512), f (Fin.cast (by norm_num) k) :=
    (Equiv.sum_comp (finCongr (by norm_num : 512 + 512 + 512 + 512 = 2048)) f).symm
  rw [e, Fin.sum_univ_add, Fin.sum_univ_add, Fin.sum_univ_add, zero_add]
  rfl

end Cert.MemoryRead

end
-- ==== Proof.BlockValue.lean ====
/-
  The output block's accumulator half, read at an index over the extended reals.

  A matrix product into a zero accumulator is, at an index, the sum over the contracted axis of the products of the
  two operands' entries: for the logits the 50 features are contracted (`block · bandᵀ`), for the read the band's
  512 rows (`scores · band`). With finite entries the three cross products of the split operands collapse to the
  plain inner product (`Cert.MemoryRead.split_sum`), so one band's update adds `∑ⱼ exp ⟨x_p, m_j⟩ · m_j[q]` over the
  band's rows `j`; the four updates of the zero block then add up, band by band, to the sum over all 2048 memory rows
  (`Cert.MemoryRead.sum_four_bands`).
-/
import proofs.«147520_j9053791060248_2_alg».proof.Proof.BlockTerm
import proofs.«147520_j9053791060248_2_alg».proof.Proof.ReadSpec
import Idealize.ShloMosaic.PureOps.Ideal.Laws
import Idealize.ShloMosaic.Lib.ValueIdx

set_option maxRecDepth 16384

noncomputable section

open Idealize.ShloMosaic Idealize.ShloMosaic.TcCoe Idealize.SL.Sem

namespace Cert.KernelIdeal.BlockValue

open Cert.KernelIdeal Cert.KernelIdeal.Gen Cert.KernelIdeal.Block Idealize.ShloMosaic.ValueIdx Cert.MemoryRead

/-! ## The two matrix products at an index -/

theorem logit_lhs_0 (i : S2048x512.Idx) (k : dLogit.contr.Idx) : (dLogit.lhsIdx i k 0).val = (i 0).val := by
  unfold DotDims.lhsIdx
  rw [dif_neg (show ¬(0 : Fin S2048x50.rank) ∈ dLogit.lhsBatch by decide),
    dif_pos (show (0 : Fin S2048x50.rank) ∈ dLogit.lhsNonContracting by decide)]
  rfl
theorem logit_rhs_0 (i : S2048x512.Idx) (k : dLogit.contr.Idx) : (dLogit.rhsIdx i k 0).val = (i 1).val := by
  unfold DotDims.rhsIdx
  rw [dif_neg (show ¬(0 : Fin S512x50.rank) ∈ dLogit.rhsBatch by decide),
    dif_pos (show (0 : Fin S512x50.rank) ∈ dLogit.rhsNonContracting by decide)]
  rfl

/-- `block · bandᵀ` into zero, at (row `p`, band row `j`): the inner product of the two rows over the 50 features. -/
theorem logit_matmul_apply {φ₁ φ₂ : FTy} (lhs : FVec Ideal S2048x50 φ₁) (rhs : FVec Ideal S512x50 φ₂)
    (p : Fin 2048) (j : Fin 512) :
    matmul dLogit none lhs rhs (constant (F := Ideal) S2048x512 .f32 0x00000000#32) (ix2 p j)
      = ∑ d : Fin 50, lhs (ix2 p d) * rhs (ix2 j d) := by
  show FloatOps.matmul dLogit none lhs rhs (constant (F := Ideal) S2048x512 .f32 0x00000000#32) (ix2 p j) = _
  rw [Ideal.matmul_constant_zero_apply, ← Equiv.sum_comp (contrEquiv1 dLogit 50 rfl rfl).symm]
  refine Finset.sum_congr rfl fun d _ => ?_
  have hd := contrEquiv1_symm_val dLogit 50 rfl rfl d
  have el : dLogit.lhsIdx (ix2 p j) ((contrEquiv1 dLogit 50 rfl rfl).symm d) = ix2 p d := funext fun a => Fin.ext (by
    match a with
    | ⟨0, _⟩ => exact logit_lhs_0 _ _
    | ⟨1, _⟩ => exact (dLogit.lhsIdx_val_of_single rfl _ _).trans hd)
  have er : dLogit.rhsIdx (ix2 p j) ((contrEquiv1 dLogit 50 rfl rfl).symm d) = ix2 j d := funext fun a => Fin.ext (by
    match a with
    | ⟨0, _⟩ => exact logit_rhs_0 _ _
    | ⟨1, _⟩ => exact (dLogit.rhsIdx_val_of_single rfl _ _).trans hd)
  rw [el, er]

theorem read_lhs_0 (i : S2048x50.Idx) (k : dRead.contr.Idx) : (dRead.lhsIdx i k 0).val = (i 0).val := by
  unfold DotDims.lhsIdx
  rw [dif_neg (show ¬(0 : Fin S2048x512.rank) ∈ dRead.lhsBatch by decide),
    dif_pos (show (0 : Fin S2048x512.rank) ∈ dRead.lhsNonContracting by decide)]
  rfl
theorem read_rhs_1 (i : S2048x50.Idx) (k : dRead.contr.Idx) : (dRead.rhsIdx i k 1).val = (i 1).val := by
  unfold DotDims.rhsIdx
  rw [dif_neg (show ¬(1 : Fin S512x50.rank) ∈ dRead.rhsBatch by decide),
    dif_pos (show (1 : Fin S512x50.rank) ∈ dRead.rhsNonContracting by decide)]
  rfl

/-- `scores · band` into zero, at (row `p`, feature `q`): the band's rows weighted by the row's scores. -/
theorem read_matmul_apply {φ₁ φ₂ : FTy} (lhs : FVec Ideal S2048x512 φ₁) (rhs : FVec Ideal S512x50 φ₂)
    (p : Fin 2048) (q : Fin 50) :
    matmul dRead none lhs rhs (constant (F := Ideal) S2048x50 .f32 0x00000000#32) (ix2 p q)
      = ∑ j : Fin 512, lhs (ix2 p j) * rhs (ix2 j q) := by
  show FloatOps.matmul dRead none lhs rhs (constant (F := Ideal) S2048x50 .f32 0x00000000#32) (ix2 p q) = _
  rw [Ideal.matmul_constant_zero_apply, ← Equiv.sum_comp (contrEquiv1 dRead 512 rfl rfl).symm]
  refine Finset.sum_congr rfl fun j _ => ?_
  have hj := contrEquiv1_symm_val dRead 512 rfl rfl j
  have el : dRead.lhsIdx (ix2 p q) ((contrEquiv1 dRead 512 rfl rfl).symm j) = ix2 p j := funext fun a => Fin.ext (by
    match a with
    | ⟨0, _⟩ => exact read_lhs_0 _ _
    | ⟨1, _⟩ => exact (dRead.lhsIdx_val_of_single rfl _ _).trans hj)
  have er : dRead.rhsIdx (ix2 p q) ((contrEquiv1 dRead 512 rfl rfl).symm j) = ix2 j q := funext fun a => Fin.ext (by
    match a with
    | ⟨0, _⟩ => exact (dRead.rhsIdx_val_of_single rfl _ _).trans hj
    | ⟨1, _⟩ => exact read_rhs_1 _ _)
  rw [el, er]

/-! ## One band -/

/-- One band's logits: for finite entries the three cross products of the split operands are the inner product. -/
theorem bandLogits_apply (x0 : Vec Ideal S2048x50 .f32) (mb : Vec Ideal S512x50 .f32)
    (hx : ∀ p d, Finite (x0 (ix2 p d))) (hm : ∀ j d, Finite (mb (ix2 j d))) (p : Fin 2048) (j : Fin 512) :
    bandLogits (k0_pay2 x0) (k0_pay3 x0) mb (ix2 p j) = ∑ d : Fin 50, x0 (ix2 p d) * mb (ix2 j d) := by
  unfold bandLogits k0_pay2 k0_pay3
  dsimp only
  rw [addf_apply, addf_apply, logit_matmul_apply, logit_matmul_apply, logit_matmul_apply]
  simp only [truncf_apply, subf_apply]
  exact split_sum (fun d => x0 (ix2 p d)) (fun d => mb (ix2 j d)) (hx p) (hm j)

/-- One band's update: the accumulator plus, over the band's rows, `exp` of the logit times the row's feature. -/
theorem bandUpdate_apply (x0 : Vec Ideal S2048x50 .f32) (mb : Vec Ideal S512x50 .f32)
    (hx : ∀ p d, Finite (x0 (ix2 p d))) (hm : ∀ j d, Finite (mb (ix2 j d)))
    (acc : Vec Ideal S2048x50 .f32) (p : Fin 2048) (q : Fin 50) :
    bandUpdate (k0_pay2 x0) (k0_pay3 x0) mb acc (ix2 p q)
      = acc (ix2 p q) + ∑ j : Fin 512, Ideal.exp (∑ d : Fin 50, x0 (ix2 p d) * mb (ix2 j d)) * mb (ix2 j q) := by
  unfold bandUpdate
  rw [shapeCast_self, addf_apply, read_matmul_apply]
  refine congrArg (acc (ix2 p q) + ·) (Finset.sum_congr rfl fun j _ => ?_)
  rw [truncf_apply, truncf_apply]
  show FloatOps.exp (bandLogits (k0_pay2 x0) (k0_pay3 x0) mb (ix2 p j)) * mb (ix2 j q) = _
  rw [bandLogits_apply x0 mb hx hm p j, Ideal.exp_def]

/-! ## The four bands -/

/-- Band `c` of the memory block at (row `j`, feature `d`) is the block at row `512·c + j`. -/
theorem band0_apply (x1 : Vec Ideal S2048x50 .f32) (j : Fin 512) (d : Fin 50) :
    band0 x1 (ix2 j d) = x1 (ix2 ⟨j.val, by have := j.isLt; omega⟩ d) :=
  congrArg x1 (funext fun a => Fin.ext (by
    match a with
    | ⟨0, _⟩ => show 0 + 1 * j.val = j.val; omega
    | ⟨1, _⟩ => show 0 + 1 * d.val = d.val; omega))
theorem band1_apply (x1 : Vec Ideal S2048x50 .f32) (j : Fin 512) (d : Fin 50) :
    band1 x1 (ix2 j d) = x1 (ix2 ⟨512 + j.val, by have := j.isLt; omega⟩ d) :=
  congrArg x1 (funext fun a => Fin.ext (by
    match a with
    | ⟨0, _⟩ => show 512 + 1 * j.val = 512 + j.val; omega
    | ⟨1, _⟩ => show 0 + 1 * d.val = d.val; omega))
theorem band2_apply (x1 : Vec Ideal S2048x50 .f32) (j : Fin 512) (d : Fin 50) :
    band2 x1 (ix2 j d) = x1 (ix2 ⟨1024 + j.val, by have := j.isLt; omega⟩ d) :=
  congrArg x1 (funext fun a => Fin.ext (by
    match a with
    | ⟨0, _⟩ => show 1024 + 1 * j.val = 1024 + j.val; omega
    | ⟨1, _⟩ => show 0 + 1 * d.val = d.val; omega))
theorem band3_apply (x1 : Vec Ideal S2048x50 .f32) (j : Fin 512) (d : Fin 50) :
    band3 x1 (ix2 j d) = x1 (ix2 ⟨1536 + j.val, by have := j.isLt; omega⟩ d) :=
  congrArg x1 (funext fun a => Fin.ext (by
    match a with
    | ⟨0, _⟩ => show 1536 + 1 * j.val = 1536 + j.val; omega
    | ⟨1, _⟩ => show 0 + 1 * d.val = d.val; omega))

/-- The block the accumulator starts from is zero. -/
theorem zero_block_apply (i : S2048x50.Idx) : (k0_pay4 (F := Ideal)) i = 0 := by
  unfold k0_pay4
  rw [shapeCast_self, broadcast_apply]
  exact Ideal.ofBits_zero_f32

/-- THE ACCUMULATOR AFTER THE BODY, for finite entries: at (row `p`, feature `q`) the sum over all 2048 memory rows
    `k` of `exp ⟨x_p, m_k⟩ · m_k[q]`. -/
theorem accumulated_apply (x0 x1 : Vec Ideal S2048x50 .f32)
    (hx : ∀ p d, Finite (x0 (ix2 p d))) (hm : ∀ k d, Finite (x1 (ix2 k d))) (p : Fin 2048) (q : Fin 50) :
    accumulated x0 x1 (ix2 p q)
      = ∑ k : Fin 2048, Ideal.exp (∑ d : Fin 50, x0 (ix2 p d) * x1 (ix2 k d)) * x1 (ix2 k q) := by
  unfold accumulated
  rw [bandUpdate_apply x0 _ hx (fun j d => by rw [band3_apply]; exact hm _ d),
    bandUpdate_apply x0 _ hx (fun j d => by rw [band2_apply]; exact hm _ d),
    bandUpdate_apply x0 _ hx (fun j d => by rw [band1_apply]; exact hm _ d),
    bandUpdate_apply x0 _ hx (fun j d => by rw [band0_apply]; exact hm _ d), zero_block_apply]
  simp only [band0_apply, band1_apply, band2_apply, band3_apply]
  exact sum_four_bands (fun k => Ideal.exp (∑ d : Fin 50, x0 (ix2 p d) * x1 (ix2 k d)) * x1 (ix2 k q))

end Cert.KernelIdeal.BlockValue

end
-- ==== Proof.KernelArray.lean ====
/-
  The kernel's result array after the run, as one function of the two argument arrays over the extended reals.

  The grid has 32 points. Point `t` stages rows `2048·t … 2048·t + 2047` of `x` and the whole memory, and writes back
  rows `2048·t … 2048·t + 2047` of the result, all 100 columns. What it writes is the block of `Cert.MemoryRead.result`
  at those rows (`block_value`: columns 0–49 copy the staged rows of `x`, columns 50–99 are the accumulator, which for
  finite entries is the unnormalised read), the 32 blocks tile the 65536 rows (`cover`), so the array ends holding
  `result` of the arguments.
-/
import proofs.«147520_j9053791060248_2_alg».proof.Proof.Gen.KernelIdeal.Value
import proofs.«147520_j9053791060248_2_alg».proof.Proof.BlockValue
import proofs.«147520_j9053791060248_2_alg».proof.Proof.ReadSpec
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.ArrayValue

open Cert.KernelIdeal Cert.KernelIdeal.Gen Cert.KernelIdeal.Block Cert.KernelIdeal.BlockValue
open Idealize.ShloMosaic.ValueIdx Cert.MemoryRead

/-- THE BLOCK A POINT LEAVES, over variables: if the staged batch rows `x0` are rows `b … b + 2047` of `X`, the staged
    memory `x1` is `M`, all entries finite, then the output block at `y` is `result X M` at the array index `g` that
    sits `b` rows below `y`. -/
theorem block_value (c : Dev nD) (i : grid0.Coords) (a1 : Memref sig .tc .vmem S2048x50 .f32) (h1 : a1.IsWhole)
    (a2 : Memref sig .tc .vmem S2048x50 .f32) (h2 : a2.IsWhole) (a3 : Memref sig .tc .vmem S2048x100 .f32) (h3 : a3.IsWhole)
    (a4 : Memref sig .tc .vmem S2048x50 .f32) (h4 : a4.IsWhole) (x0 x1 : Vec Ideal S2048x50 .f32)
    (X : XIdx → EReal) (M : MIdx → EReal) (hX : ∀ i, Finite (X i)) (hM : ∀ i, Finite (M i))
    (b : Nat) (hb : b + 2048 ≤ 65536)
    (hx0 : ∀ (p : Fin 2048) (d : Fin 50), x0 (ix2 p d) = X (ix2 ⟨b + p.val, by have := p.isLt; omega⟩ d))
    (hx1 : ∀ (k : Fin 2048) (d : Fin 50), x1 (ix2 k d) = M (ix2 k d))
    (y : S2048x100.Idx) (g : OIdx) (hg0 : (g 0).val = b + (y 0).val) (hg1 : (g 1).val = (y 1).val) :
    out0_A_2 c i a1 h1 a2 h2 a3 h3 a4 h4 x0 x1 y = result X M g := by
  have hy0 : (y 0).val < 2048 := idx2_lt0 y
  have hy1 : (y 1).val < 100 := idx2_lt1 y
  have hxf : ∀ p d, Finite (x0 (ix2 p d)) := fun p d => by rw [hx0]; exact hX _
  have hmf : ∀ k d, Finite (x1 (ix2 k d)) := fun k d => by rw [hx1]; exact hM _
  by_cases h : (y 1).val < 50
  · rw [out_left c i a1 h1 a2 h2 a3 h3 a4 h4 x0 x1 y ⟨(y 0).val, hy0⟩ ⟨(y 1).val, h⟩ rfl rfl, hx0]
    exact (result_left X M ⟨b + (y 0).val, by omega⟩ ⟨(y 1).val, h⟩ g (Fin.ext hg0) hg1).symm
  · have hq : (y 1).val - 50 < 50 := by omega
    rw [out_right c i a1 h1 a2 h2 a3 h3 a4 h4 x0 x1 y ⟨(y 0).val, hy0⟩ ⟨(y 1).val - 50, hq⟩ rfl
        (by show (y 1).val = 50 + ((y 1).val - 50); omega),
      accumulated_apply x0 x1 hxf hmf,
      result_right X M ⟨b + (y 0).val, by omega⟩ ⟨(y 1).val - 50, hq⟩ g (Fin.ext hg0)
        (by show (g 1).val = 50 + ((y 1).val - 50); omega)]
    unfold MemoryRead.read MemoryRead.logit
    simp only [hx0, hx1]

variable (m : (ℓ : Loc nD τ sig) → Buf (Elt Ideal) ℓ) (ρ : Dev nD → PrngReg)

/-- The windows' index maps, decided over the 32 points: the batch window moves with the output window along the
    rows and sits at column block 0, the memory window never moves, the output's row block index is the point's. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 31 :=
  (by decide +kernel : ∀ t : Fin grid0.N, _)

/-- Every one of the 32 row blocks is some point's. -/
theorem idx_onto : ∀ q0 : Fin 32, ∃ t : Fin cfg0.N, win0_2.index t = ![q0.val, 0] :=
  (by decide +kernel : ∀ q0 : Fin 32, ∃ t : Fin grid0.N, win0_2.index t = ![q0.val, 0])

/-- WHAT POINT `t` WRITES BACK is block `t` of `result` of the argument arrays, when their entries are finite. -/
theorem flushed_eq (c : Dev nD) (hX : ∀ i, Finite (m ((c : Thread nD τ).loc main_arg0) i))
    (hM : ∀ i, Finite (m ((c : Thread nD τ).loc main_arg1) i)) (t : Fin cfg0.N) :
    (dats m 0 c).flushed 2 t = ((cfg0.win 2).blk t).view.read (Elt Ideal)
      (result (m ((c : Thread nD τ).loc main_arg0)) (m ((c : Thread nD τ).loc main_arg1))) := by
  rw [Value.flushed2_A]
  obtain ⟨e0, e1, e2, e3, e4, e5⟩ := idx_facts t
  funext y
  show out0_A_2 c (grid0.coords t) (ms0_0 t) (hs0_0 t) (ms0_1 t) (hs0_1 t) (ms0_2 t) (hs0_2 t) scM0_0
      (Memref.isWhole_whole _) (iblk m c 0 t) (iblk m c 1 t) y
    = result (m ((c : Thread nD τ).loc main_arg0)) (m ((c : Thread nD τ).loc main_arg1))
        (((cfg0.win 2).blk t).view.emb y)
  refine block_value c (grid0.coords t) (ms0_0 t) (hs0_0 t) (ms0_1 t) (hs0_1 t) (ms0_2 t) (hs0_2 t) scM0_0
    (Memref.isWhole_whole _) (iblk m c 0 t) (iblk m c 1 t) (m ((c : Thread nD τ).loc main_arg0))
    (m ((c : Thread nD τ).loc main_arg1)) hX hM (win0_2.index t (0 : Fin 2) * 2048) (by omega) ?_ ?_ y
    (((cfg0.win 2).blk t).view.emb y) ?_ ?_
  · intro p d
    show m ((c : Thread nD τ).loc main_arg0) (((cfg0.win 0).blk t).view.emb (ix2 p d)) = _
    refine congrArg (m ((c : Thread nD τ).loc main_arg0)) (funext fun a => Fin.ext ?_)
    match a with
    | ⟨0, _⟩ => show win0_0.index t (0 : Fin 2) * 2048 + 1 * p.val = win0_2.index t (0 : Fin 2) * 2048 + p.val; omega
    | ⟨1, _⟩ => show win0_0.index t (1 : Fin 2) * 50 + 1 * d.val = d.val; omega
  · intro k d
    show m ((c : Thread nD τ).loc main_arg1) (((cfg0.win 1).blk t).view.emb (ix2 k d)) = _
    refine congrArg (m ((c : Thread nD τ).loc main_arg1)) (funext fun a => Fin.ext ?_)
    match a with
    | ⟨0, _⟩ => show win0_1.index t (0 : Fin 2) * 2048 + 1 * k.val = k.val; omega
    | ⟨1, _⟩ => show win0_1.index t (1 : Fin 2) * 50 + 1 * d.val = d.val; omega
  · show win0_2.index t (0 : Fin 2) * 2048 + 1 * (y 0).val = win0_2.index t (0 : Fin 2) * 2048 + (y 0).val; omega
  · show win0_2.index t (1 : Fin 2) * 100 + 1 * (y 1).val = (y 1).val; omega

/-- An index of the result array is in point `t`'s block iff each coordinate is in the block's range on its axis. -/
theorem mem_blk (t : Fin cfg0.N) (i : S65536x100.Idx) :
    i ∈ ((cfg0.win 2).blk t).view.set ↔ ∀ a : Fin 2, win0_2.index t a * S2048x100.size a ≤ (i a).val
      ∧ (i a).val < win0_2.index t a * S2048x100.size a + S2048x100.size a := by
  show i ∈ ((View.whole main_v0).slice (win0_2.rect t)).set ↔ _
  rw [View.set_slice_whole, Rect.mem_set_unit]
  exact Iff.rfl

/-- THE 32 BLOCKS TILE THE ARRAY: row `r` is in the block of the point whose row block index is `r / 2048`. -/
theorem cover (i : S65536x100.Idx) :
    ∃ t : Fin cfg0.N, (cfg0.win 2).flush t = true ∧ i ∈ ((cfg0.win 2).blk t).view.set := by
  have hi0 : (i 0).val < 65536 := (i 0).isLt
  have hi1 : (i 1).val < 100 := (i 1).isLt
  obtain ⟨t, ht⟩ := idx_onto ⟨(i 0).val / 2048, by omega⟩
  have q0 : win0_2.index t (0 : Fin 2) = (i 0).val / 2048 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 100 ≤ (i 1).val ∧ (i 1).val < win0_2.index t (1 : Fin 2) * 100 + 100; omega

/-- THE ARRAY AFTER THE RUN is `result` of the argument arrays, when their entries are finite. -/
theorem final (c : Dev nD) (hX : ∀ i, Finite (m ((c : Thread nD τ).loc main_arg0) i))
    (hM : ∀ i, Finite (m ((c : Thread nD τ).loc main_arg1) i)) :
    (dats m 0 c).arrAt 2 cfg0.N
      = result (m ((c : Thread nD τ).loc main_arg0)) (m ((c : Thread nD τ).loc main_arg1)) :=
  (dats m 0 c).arrAt_eq_of_cover 2 _ (fun t _ => flushed_eq m c hX hM t) cover

/-- The kernel's run, read: the result array at `result` of the arguments, the arguments unchanged. -/
theorem run (hfin : ∀ c : Dev nD, (∀ i, Finite (m ((c : Thread nD τ).loc main_arg0) i))
      ∧ (∀ i, Finite (m ((c : Thread nD τ).loc main_arg1) i))) :
    θ_run defs (onTc (τ := τ) (main (F := Ideal))) ⟨m, fun _ => 0, ρ⟩ fun r => ∀ c : Dev nD,
      r.2.mem ((c : Thread nD τ).loc main_v0)
          = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c (hfin c).1 (hfin c).2), (h c).2⟩)
    (Value.run_blocks m ρ)

end Cert.KernelIdeal.ArrayValue

end
-- ==== Proof.ReferenceValue.lean ====
/-
  The reference's result, index by index over the extended reals, is `Cert.MemoryRead.result` of its arguments.

  The reference is four operations: the logits `x · memᵀ` (features contracted), their exponential, the product of
  those scores with the memory (slots contracted), and the concatenation of `x` with that product along the columns.
  Each product at an index is a plain sum over the contracted axis, so the second product at (row `r`, feature `q`) is
  `∑ₖ exp (∑_d x[r,d] · mem[k,d]) · mem[k,q]`, the read; a column below 50 of the concatenation falls in `x`, a
  column from 50 on falls in the product at the column less 50.
-/
import proofs.«147520_j9053791060248_2_alg».proof.Proof.Gen.ReferenceIdeal.Read
import proofs.«147520_j9053791060248_2_alg».proof.Proof.ReadSpec
import Idealize.ShloMosaic.Lib.Pipeline.Value
import Idealize.ShloMosaic.Lib.ValueIdx
import Idealize.ShloMosaic.PureOps.Ideal

noncomputable section

open Idealize.ShloMosaic Idealize.ShloMosaic.TcCoe Idealize.SL.Sem

namespace Cert.ReferenceIdeal.RefValue

open Cert.ReferenceIdeal Cert.ReferenceIdeal.Gen Cert.ReferenceIdeal.Read
open Idealize.ShloMosaic.ValueIdx Cert.MemoryRead

/-- The scores times the memory, at (row, feature), is the unnormalised read of that row at that feature. -/
theorem product_eq_read (x : XIdx → EReal) (mem : MIdx → EReal) (i : S65536x50.Idx) :
    val_main_v2 (F := Ideal) x mem i = MemoryRead.read x mem (i 0) (i 1) := by
  rw [val_main_v2_apply]
  unfold MemoryRead.read MemoryRead.logit
  refine Finset.sum_congr rfl fun k _ => ?_
  rw [val_main_v1_apply, val_main_v0_apply, Ideal.hostUnary_exp_def]
  have e1 : ∀ d : Fin 50, lidx_main_v0 (lidx_main_v2 i k) d = ix2 (i 0) d := fun d =>
    funext fun a => Fin.ext (by match a with | ⟨0, _⟩ => rfl | ⟨1, _⟩ => rfl)
  have e2 : ∀ d : Fin 50, ridx_main_v0 (lidx_main_v2 i k) d = ix2 k d := fun d =>
    funext fun a => Fin.ext (by match a with | ⟨0, _⟩ => rfl | ⟨1, _⟩ => rfl)
  have e3 : ridx_main_v2 i k = ix2 k (i 1) :=
    funext fun a => Fin.ext (by match a with | ⟨0, _⟩ => rfl | ⟨1, _⟩ => rfl)
  simp only [e1, e2, e3]
  rfl

/-- THE REFERENCE'S RESULT is `result` of its two arguments. -/
theorem result_eq (x : XIdx → EReal) (mem : MIdx → EReal) :
    val_main_v3 (F := Ideal) x mem = result x mem := by
  funext j
  unfold val_main_v3
  have hj : (j 1).val < 100 := idx2_lt1 j
  by_cases h : (j 1).val < 50
  · rw [concatenate_pair_apply_left (1 : Fin S65536x100.rank) x (val_main_v2 (F := Ideal) x mem)
      concatenates_S65536x50_S65536x50_S65536x100_d1 j rfl (ix2 (j 0) ⟨(j 1).val, h⟩)
      (fun b => by match b with | ⟨0, _⟩ => rfl | ⟨1, _⟩ => rfl)]
    exact (result_left x mem (j 0) ⟨(j 1).val, h⟩ j rfl rfl).symm
  · have hq : (j 1).val - 50 < 50 := by omega
    rw [concatenate_pair_apply_right (1 : Fin S65536x100.rank) x (val_main_v2 (F := Ideal) x mem)
      concatenates_S65536x50_S65536x50_S65536x100_d1 j rfl rfl (ix2 (j 0) ⟨(j 1).val - 50, hq⟩)
      (fun b => by match b with | ⟨0, _⟩ => exact fun _ => rfl | ⟨1, _⟩ => exact fun hne => (hne rfl).elim)
      (by show ((j 1).val - 50) + 50 = (j 1).val; omega),
      product_eq_read]
    exact (result_right x mem (j 0) ⟨(j 1).val - 50, hq⟩ j rfl
      (by show (j 1).val = 50 + ((j 1).val - 50); omega)).symm

end Cert.ReferenceIdeal.RefValue

end
-- ==== Proof.FiniteEntries.lean ====
/-
  From the precondition to "every entry of both argument arrays is finite".

  The precondition is the conjunction of two `all`s, one per array, of the entrywise test `|a| < +∞`, stated as
  "the result is 1". A conjunction that is 1 has both sides 1; an `all` (a reduction by `and` over every axis, from
  1) that is 1 had a 1 at every index; and over the extended reals `|a| = max a (−a)` is below `+∞` exactly when
  `a` is neither infinity. Finiteness is what the kernel's split of its operands needs: `a − a = 0` fails at `±∞`.
-/
import proofs.«147520_j9053791060248_2_alg».proof.Pre_finite_inputs
import proofs.«147520_j9053791060248_2_alg».proof.Proof.Gen.Pre_finite_inputs
import proofs.«147520_j9053791060248_2_alg».proof.Proof.ReadSpec
import Idealize.ShloMosaic.PureOps.Ideal
import Idealize.ShloMosaic.Lib.ReduceAll
import Idealize.ShloMosaic.Lib.ValueIdx

noncomputable section

open Idealize.ShloMosaic

namespace Cert.FiniteEntries

open Cert.Pre_finite_inputs Cert.Pre_finite_inputs.Gen Cert.MemoryRead

instance : Subsingleton S_.Idx := ⟨fun a b => funext fun d => d.elim0⟩

/-- The word the test compares against denotes `+∞`. -/
theorem inf_word : Ideal.ofBits .f32 0x7F800000#32 = ⊤ := by simp [Ideal.ofBits, Ideal.ieee]

/-- An extended real whose absolute value tests below `+∞` is neither infinity. -/
theorem finite_of_test (a : EReal) (h : Ideal.cmp .olt (max a (-a)) (Ideal.ofBits .f32 0x7F800000#32) = 1#1) :
    Finite a := by
  rw [inf_word] at h
  have h' : max a (-a) < ⊤ := by
    by_contra hn
    simp [Ideal.cmp, hn] at h
  refine ⟨fun e => ?_, fun e => ?_⟩
  · subst e; simp at h'
  · subst e; simp at h'

/-- Under the precondition every entry of `x` and every entry of the memory is finite. -/
theorem of_pre (x : FVec Ideal S65536x50 .f32) (mem : FVec Ideal S2048x50 .f32)
    (h : fn (F := Ideal) x mem = fun _ => 1#1) : (∀ i, Finite (x i)) ∧ (∀ i, Finite (mem i)) := by
  have h0 := congrFun h ValueIdx.ix0
  dsimp only [fn] at h0
  obtain ⟨hx, hm⟩ := IntOp.andi_eq_one.1 h0
  refine ⟨fun i => ?_, fun i => ?_⟩
  · have e := Host.reduce_andi_all _ _ _ _ _ hx i
    exact finite_of_test (x i) e
  · have e := Host.reduce_andi_all _ _ _ _ _ hm i
    exact finite_of_test (mem i) e

end Cert.FiniteEntries

end
-- ==== Proof.lean ====
/-
  An unnormalised attention read against a fixed memory, tiled over the batch, equals its plain two-product reference
  over the extended reals.

  Inputs: `x` f32[65536, 50] (batch rows) and `memory` f32[2048, 50] (slots). Both programs return f32[65536, 100]:
  row `r` is `x_r` followed by `∑ₖ exp ⟨x_r, m_k⟩ · m_k`, the slots weighted by the exponentials of their logits,
  with no normalisation.

  The reference computes it as written: logits `x · memoryᵀ`, their exponential, the product with `memory`, the
  concatenation with `x`. The kernel walks the batch in 32 blocks of 2048 rows; within a block it walks the memory
  in four bands of 512 slots, keeping a running [2048, 50] accumulator that starts at zero and gains
  `exp(logits) · band` per band; and it forms each band's logits from a rounding split of both operands — a leading
  part plus the remainder `a − a` — as leading·leading + leading·remainder + remainder·leading. Over the extended
  reals a change of float format is the identity, so the leading part is the operand and the remainder is `a − a`.

  Why the two agree, and where the precondition enters:
  * `a − a = 0` holds for a FINITE `a` (at `±∞` it does not), and a product with `0` is `0` for every extended
    real, so under "every input entry is finite" the two remainder products vanish and a band's logits are the plain
    inner products (`Cert.MemoryRead.split_sum`). This is the one use of the precondition.
  * The four bands' contributions added in order from zero are the sum over all 2048 slots: addition of extended
    reals is associative and commutative with `0` neutral, no finiteness needed (`Cert.MemoryRead.sum_four_bands`).
  * A matrix product into a zero accumulator and the host's `dot_general` are, at an index, the same sum over the
    contracted axis; the kernel's `exp` and the host's are one function.
  * The 32 row blocks tile the 65536 rows, each written once; columns 0–49 of a block copy the staged rows of `x`,
    columns 50–99 the accumulator — the concatenation.

  The three frames: the two kernels' are the generated frame runs; the reference's is its generated run with the
  result dropped. `preserves`: the idealized kernel differs from the kernel in five places, each a widening of a
  just-narrowed value replaced by the value itself, which over the extended reals is the identity.
-/
import proofs.«147520_j9053791060248_2_alg».proof.Defs
import proofs.«147520_j9053791060248_2_alg».proof.Proof.Gen.Kernel
import proofs.«147520_j9053791060248_2_alg».proof.Proof.Gen.Kernel.Skeleton
import proofs.«147520_j9053791060248_2_alg».proof.Proof.Gen.Kernel.Launch
import proofs.«147520_j9053791060248_2_alg».proof.Proof.Gen.Kernel.Points
import proofs.«147520_j9053791060248_2_alg».proof.Proof.Gen.Kernel.Frame
import proofs.«147520_j9053791060248_2_alg».proof.Proof.Gen.KernelIdeal
import proofs.«147520_j9053791060248_2_alg».proof.Proof.Gen.KernelIdeal.Skeleton
import proofs.«147520_j9053791060248_2_alg».proof.Proof.Gen.KernelIdeal.Launch
import proofs.«147520_j9053791060248_2_alg».proof.Proof.Gen.KernelIdeal.Points
import proofs.«147520_j9053791060248_2_alg».proof.Proof.Gen.KernelIdeal.Frame
import proofs.«147520_j9053791060248_2_alg».proof.Proof.Gen.ReferenceIdeal
import proofs.«147520_j9053791060248_2_alg».proof.Proof.Gen.Pre_finite_inputs
import proofs.«147520_j9053791060248_2_alg».proof.Proof.Gen.KernelIdeal.Value
import proofs.«147520_j9053791060248_2_alg».proof.Proof.Gen.ReferenceIdeal.Run
import proofs.«147520_j9053791060248_2_alg».proof.Proof.Gen.ReferenceIdeal.Read
import proofs.«147520_j9053791060248_2_alg».proof.Proof.KernelArray
import proofs.«147520_j9053791060248_2_alg».proof.Proof.ReferenceValue
import proofs.«147520_j9053791060248_2_alg».proof.Proof.FiniteEntries
import Idealize.ShloMosaic.PureOps.IdealRules
import Idealize.ShloMosaic.Adequacy
import Idealize.ShloMosaic.Init

noncomputable section

namespace Cert.Proof

open Idealize.ShloMosaic Idealize.ShloMosaic.TcCoe Idealize.SL.Sem

/-- The kernel at the word level runs, and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The five places where the idealization replaced "narrow to bf16, widen back" by the value itself — the batch
    block once, each of the four memory bands once —: over the extended reals that round trip is the identity. -/
theorem preserves : Cert.preserves_Kernel_KernelIdeal :=
  ⟨IdealRules.truncf_extf.statement Cert.KernelIdeal.S2048x50 .f32 .bf16,
   IdealRules.truncf_extf.statement Cert.KernelIdeal.S512x50 .f32 .bf16,
   IdealRules.truncf_extf.statement Cert.KernelIdeal.S512x50 .f32 .bf16,
   IdealRules.truncf_extf.statement Cert.KernelIdeal.S512x50 .f32 .bf16,
   IdealRules.truncf_extf.statement Cert.KernelIdeal.S512x50 .f32 .bf16⟩

/-- Over the extended reals, from arguments that agree and are finite, both programs end with their result array at
    `Cert.MemoryRead.result` of the arguments: the kernel block by block (`ArrayValue.run`, which uses the
    finiteness), the reference operation by operation (`RefValue.result_eq`). -/
theorem algebraic : Cert.algebraic_KernelIdeal_ReferenceIdeal := by
  intro m ρ m' ρ' hpre hagree
  have hfin : ∀ c : Dev Cert.KernelIdeal.nD,
      (∀ i, Cert.MemoryRead.Finite (m ((c.tc : Thread Cert.KernelIdeal.nD Cert.KernelIdeal.τ).loc Cert.KernelIdeal.main_arg0) i))
      ∧ (∀ i, Cert.MemoryRead.Finite (m ((c.tc : Thread Cert.KernelIdeal.nD Cert.KernelIdeal.τ).loc Cert.KernelIdeal.main_arg1) i)) :=
    fun c => Cert.FiniteEntries.of_pre _ _ (hpre c)
  refine ⟨fun c => Cert.MemoryRead.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.ArrayValue.run m ρ hfin, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, (hagree c).1, (hagree c).2]
  exact Cert.ReferenceIdeal.RefValue.result_eq _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
